-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x6 : Shape := ⟨2, ![600000, 6]⟩
abbrev S100000 : Shape := ⟨1, ![100000]⟩
abbrev S6x128 : Shape := ⟨2, ![6, 128]⟩
abbrev S128 : Shape := ⟨1, ![128]⟩
abbrev S_ : Shape := ⟨0, ![]⟩
abbrev S128x128 : Shape := ⟨2, ![128, 128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x6 : S_.BroadcastsInDim S600000x6 (![] : Fin 0 → Fin S600000x6.rank)
  reducesTo_S600000x6_S_d0_1 : S600000x6.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  main_v52

def fn_part2 {F : FTy → Type} [FloatOps F] (main_arg10 : FVec F S128 .f32) (main_arg11 : FVec F S128 .f32) (main_arg12 : FVec F S128 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg10
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg11
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S128 .f32 := Host.absf main_arg12
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_v47 main_v50

def fn_part1 {F : FTy → Type} [FloatOps F] (main_arg6 : FVec F S_ .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S128x128 .f32 := Host.absf main_arg7
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg8
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg9
  fn_part2 (F := F) main_arg10 main_arg11 main_arg12 main_v32 main_v33

def fn {F : FTy → Type} [FloatOps F] (main_arg0 : FVec F S100000x128 .f32) (main_arg1 : IVec S2x600000 32) (main_arg2 : FVec F S600000x6 .f32) (main_arg3 : IVec S100000 32) (main_arg4 : FVec F S6x128 .f32) (main_arg5 : FVec F S128 .f32) (main_arg6 : FVec F S_ .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x6 .f32 := Host.absf main_arg2
  let main_cst_0 : FVec F S_ .f32 := constant S_ .f32 0x7F800000#32
  let main_v5 : FVec F S600000x6 .f32 := broadcastInDim S600000x6 ![] bcast_S_S600000x6 main_cst_0
  let main_v6 : IVec S600000x6 1 := cmpf .olt main_v4 main_v5
  let main_c_1 : IVec S_ 1 := constantI S_ 1 1#1
  let main_v7 : IVec S_ 1 := (fun x v => Host.reduce IntOp.andi x v reducesTo_S600000x6_S_d0_1 h_S_) main_v6 main_c_1
  let main_v8 : IVec S_ 1 := andi main_v3 main_v7
  let main_v9 : FVec F S6x128 .f32 := Host.absf main_arg4
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S600000x6 : Shape := ⟨2, ![600000, 6]⟩
abbrev S100000 : Shape := ⟨1, ![100000]⟩
abbrev S6x128 : Shape := ⟨2, ![6, 128]⟩
abbrev S128 : Shape := ⟨1, ![128]⟩
abbrev S_ : Shape := ⟨0, ![]⟩
abbrev S128x128 : Shape := ⟨2, ![128, 128]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S600000x1 : Shape := ⟨2, ![600000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 46
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x6, .f32⟩
  | .hbm, ⟨3, _⟩ => ⟨S100000, .i32⟩
  | .hbm, ⟨4, _⟩ => ⟨S6x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S600000x128, .f32⟩
  | .hbm, ⟨18, _⟩ => ⟨S1x128, .f32⟩
  | .hbm, ⟨19, _⟩ => ⟨S600000x128, .f32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S_, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  bcast_S_S1x128 : S_.BroadcastsInDim S1x128 (![] : Fin 0 → Fin S1x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  dot_S600000x6_S6x128_S600000x128_1_0_0_1_n_n_wf : DotDims.WF S600000x6 S6x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)

variable [Facts₀]

def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x6 : Shape := ⟨2, ![600000, 6]⟩
abbrev S100000 : Shape := ⟨1, ![100000]⟩
abbrev S6x128 : Shape := ⟨2, ![6, 128]⟩
abbrev S128 : Shape := ⟨1, ![128]⟩
abbrev S_ : Shape := ⟨0, ![]⟩
abbrev S128x128 : Shape := ⟨2, ![128, 128]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S600000x1 : Shape := ⟨2, ![600000, 1]⟩
abbrev S100000x1 : Shape := ⟨2, ![100000, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x6, .f32⟩
  | .hbm, ⟨3, _⟩ => ⟨S100000, .i32⟩
  | .hbm, ⟨4, _⟩ => ⟨S6x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S600000x128, .f32⟩
  | .hbm, ⟨18, _⟩ => ⟨S1x128, .f32⟩
  | .hbm, ⟨19, _⟩ => ⟨S600000x128, .f32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S_, .i32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_cst_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_cst_1 : Ref sig .tc := ⟨.hbm, 71, rfl⟩
abbrev main_call2_v8 : Ref sig .tc := ⟨.hbm, 72, rfl⟩
abbrev main_call2_cst_2 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_cst_3 : Ref sig .tc := ⟨.hbm, 78, rfl⟩
abbrev main_call2_v13 : Ref sig .tc := ⟨.hbm, 79, rfl⟩
abbrev main_call2_cst_4 : Ref sig .tc := ⟨.hbm, 80, rfl⟩
abbrev main_call2_call0_v0 : Ref sig .tc := ⟨.hbm, 81, rfl⟩
abbrev main_call2_call0_v1 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call3_cst : Ref sig .tc := ⟨.hbm, 98, rfl⟩
abbrev main_call3_v0 : Ref sig .tc := ⟨.hbm, 99, rfl⟩
abbrev main_v51 : Ref sig .tc := ⟨.hbm, 100, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S600000x6_S6x128_S600000x128_1_0_0_1_n_n_wf : DotDims.WF S600000x6 S6x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeRow.lean ====
/-
  One node's row of the layer, as a function of that node's input row, its aggregated-message row and the shared
  parameters — on the extended reals.

  A node with features `x` and aggregated messages `a` (both of length 128) first forms `h j = s j · x j + a j`,
  sends it through a two-layer perceptron with a rectifier between the layers
  (`y c = Σ k, max (Σ j, h j · W₁ j k + b₁ k) 0 · W₂ k c + b₂ c`), then normalises the 128 results: with
  `μ = (Σ j, y j) / n` and `v = (Σ j, (y j − μ)²) / n`, the entry is `max ((y c − μ) · (v + ε)^(−1/2) · γ c + β c) 0`.
  Nothing here mixes two nodes: the whole layer is this row function applied node by node, which is why a tiling of
  the nodes into blocks computes the same array.
-/
import Idealize.ShloMosaic.PureOps.Ideal
import Idealize.ShloMosaic.Lib.ValueIdx

noncomputable section

namespace Cert.NodeRow

open Idealize.ShloMosaic Idealize.ShloMosaic.ValueIdx

/-- The perceptron's output row: two affine maps with a rectifier between them, applied to `s · x + a`. -/
def mlp (s x a : Fin 128 → EReal) (W₁ : Fin 128 → Fin 128 → EReal) (b₁ : Fin 128 → EReal)
    (W₂ : Fin 128 → Fin 128 → EReal) (b₂ : Fin 128 → EReal) (c : Fin 128) : EReal :=
  (∑ k : Fin 128, max ((∑ j : Fin 128, (s j * x j + a j) * W₁ j k) + b₁ k) 0 * W₂ k c) + b₂ c

/-- A row's sum divided by `n`. -/
def mean (n : EReal) (y : Fin 128 → EReal) : EReal := Ideal.div (∑ j : Fin 128, y j) n

/-- A row with its mean removed. -/
def centred (n : EReal) (y : Fin 128 → EReal) (c : Fin 128) : EReal := y c - mean n y

/-- The mean of the squared deviations from the mean. -/
def variance (n : EReal) (y : Fin 128 → EReal) : EReal := mean n fun j => centred n y j * centred n y j

/-- The normalised, scaled, shifted and rectified row. -/
def norm (n ε : EReal) (y γ β : Fin 128 → EReal) (c : Fin 128) : EReal :=
  max (centred n y c * Ideal.rsqrt (variance n y + ε) * γ c + β c) 0

/-- The layer over all nodes: entry `(r, c)` is the row function of node `r`'s feature row and aggregate row, with the shared
    scale `s`, weights, biases, `γ` and `β`; the divisor is the word of `128.0` and the variance's offset the word of the
    layer's epsilon, as both programs spell them. -/
def layerOut (x a : (⟨2, ![100000, 128]⟩ : Shape).Idx → EReal) (s : EReal) (W₁ : (⟨2, ![128, 128]⟩ : Shape).Idx → EReal)
    (b₁ : (⟨1, ![128]⟩ : Shape).Idx → EReal) (W₂ : (⟨2, ![128, 128]⟩ : Shape).Idx → EReal) (b₂ γ β : (⟨1, ![128]⟩ : Shape).Idx → EReal) :
    (⟨2, ![100000, 128]⟩ : Shape).Idx → EReal := fun i =>
  norm (Ideal.ofBits .f32 0x43000000#32) (Ideal.ofBits .f32 0x3727C5AC#32)
    (mlp (fun _ => s) (fun j => x (ix2 ⟨(i 0).val, idx2_lt0 i⟩ j)) (fun j => a (ix2 ⟨(i 0).val, idx2_lt0 i⟩ j)) (fun j k => W₁ (ix2 j k))
      (fun k => b₁ (ix1 k)) (fun k c => W₂ (ix2 k c)) (fun c => b₂ (ix1 c)))
    (fun c => γ (ix1 c)) (fun c => β (ix1 c)) ⟨(i 1).val, idx2_lt1 i⟩

/-- At an index given by its coordinates. -/
theorem layerOut_ix2 (x a : (⟨2, ![100000, 128]⟩ : Shape).Idx → EReal) (s : EReal) (W₁ : (⟨2, ![128, 128]⟩ : Shape).Idx → EReal)
    (b₁ : (⟨1, ![128]⟩ : Shape).Idx → EReal) (W₂ : (⟨2, ![128, 128]⟩ : Shape).Idx → EReal) (b₂ γ β : (⟨1, ![128]⟩ : Shape).Idx → EReal)
    (r : Fin 100000) (c : Fin 128) :
    layerOut x a s W₁ b₁ W₂ b₂ γ β (ix2 r c)
      = norm (Ideal.ofBits .f32 0x43000000#32) (Ideal.ofBits .f32 0x3727C5AC#32)
          (mlp (fun _ => s) (fun j => x (ix2 r j)) (fun j => a (ix2 r j)) (fun j k => W₁ (ix2 j k))
            (fun k => b₁ (ix1 k)) (fun k c => W₂ (ix2 k c)) (fun c => b₂ (ix1 c)))
          (fun c => γ (ix1 c)) (fun c => β (ix1 c)) c := rfl

/-- `128.0` denotes the real number 128. -/
theorem ofBits_128 : Ideal.ofBits .f32 0x43000000#32 = ((128 : ℝ) : EReal) := by
  simp [Ideal.ofBits, Ideal.ieee, -EReal.coe_mul]; norm_num

/-- The guard of the variance's selection: `128 − 0 > 0` holds. -/
theorem guard : Ideal.cmp .ogt (Ideal.ofBits .f32 0x43000000#32 - 0) (Ideal.ofBits .f32 0x00000000#32) = 1#1 := by
  rw [ofBits_128, sub_zero]
  simp [Ideal.cmp, Ideal.ofBits, Ideal.ieee]

end Cert.NodeRow

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.KernelRow.lean ====
/-
  The kernel body's stored value, read at one entry of the block.

  At row `p` and lane `q` of a 5000-row block the body's value depends only on row `p` of the block's two data inputs
  (the node features and the aggregated messages) and on the shared parameter blocks: it is the node-row function
  (`NodeRow.mlp` then `NodeRow.norm`) of those rows.  The body is read stage by stage: the scaled sum, an affine layer
  through the matrix unit (a sum over the contracted axis), the rectifier, the second layer, the row mean kept as a
  column, the centred row, the mean of its squares, and the final scale, shift and rectifier.
-/
import proofs.«126570_j74113955660246_2_alg».proof.Proof.Gen.KernelIdeal.Skeleton
import proofs.«126570_j74113955660246_2_alg».proof.Proof.NodeRow
import proofs.«126570_j74113955660246_2_alg».proof.Proof.LibKeepdims
import proofs.«126570_j74113955660246_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## The body's stages as whole-block terms -/

/-- The scaled features plus the aggregated messages. -/
def pre (s : FVec Ideal S1x128 .f32) (x a : FVec Ideal S5000x128 .f32) : FVec Ideal S5000x128 .f32 :=
  addf (mulf (broadcastTo S5000x128 (shapeCast S1x128 s shapeCasts_S1x128_S1x128) broadcasts_S1x128_S5000x128) x)
    (shapeCast S5000x128 a shapeCasts_S5000x128_S5000x128)

/-- One affine layer: the block times the weights, plus the bias row on every row. -/
def layer (h : FVec Ideal S5000x128 .bf16) (W : FVec Ideal S128x128 .f32) (b : FVec Ideal S1x128 .f32) : FVec Ideal S5000x128 .f32 :=
  addf (matmul dot_S5000x128_S128x128_S5000x128_1_0_0_1_n_n none h (truncf .bf16 W bitsLt_bf16_f32) (constant S5000x128 .f32 0x00000000#32))
    (broadcastTo S5000x128 (shapeCast S1x128 b shapeCasts_S1x128_S1x128) broadcasts_S1x128_S5000x128)

/-- The perceptron's output block. -/
def hidden (s : FVec Ideal S1x128 .f32) (x a : FVec Ideal S5000x128 .f32) (W₁ : FVec Ideal S128x128 .f32) (b₁ : FVec Ideal S1x128 .f32)
    (W₂ : FVec Ideal S128x128 .f32) (b₂ : FVec Ideal S1x128 .f32) : FVec Ideal S5000x128 .f32 :=
  layer (truncf .bf16 (maximumf (layer (truncf .bf16 (pre s x a) bitsLt_bf16_f32) W₁ b₁) (broadcast S5000x128 (Scalar.ofBits .f32 0x00000000#32))) bitsLt_bf16_f32) W₂ b₂

/-- Each row's sum divided by 128, kept as a column. -/
def colMean (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- The centred block is the perceptron's output minus its row means. -/
theorem pay2_eq (s : FVec Ideal S1x128 .f32) (x a : FVec Ideal S5000x128 .f32) (W₁ : FVec Ideal S128x128 .f32) (b₁ : FVec Ideal S1x128 .f32)
    (W₂ : FVec Ideal S128x128 .f32) (b₂ : FVec Ideal S1x128 .f32) :
    k0_pay2 (F := Ideal) s x a W₁ b₁ W₂ b₂
      = subf (hidden s x a W₁ b₁ W₂ b₂) (broadcastTo S5000x128 (colMean (hidden s x a W₁ b₁ W₂ b₂)) broadcasts_S5000x1_S5000x128) := rfl

/-- The variance column is the row means of the centred block's squares. -/
theorem pay3_eq (s : FVec Ideal S1x128 .f32) (x a : FVec Ideal S5000x128 .f32) (W₁ : FVec Ideal S128x128 .f32) (b₁ : FVec Ideal S1x128 .f32)
    (W₂ : FVec Ideal S128x128 .f32) (b₂ : FVec Ideal S1x128 .f32) :
    k0_pay3 (F := Ideal) s x a W₁ b₁ W₂ b₂
      = colMean (mulf (k0_pay2 (F := Ideal) s x a W₁ b₁ W₂ b₂) (k0_pay2 (F := Ideal) s x a W₁ b₁ W₂ b₂)) := rfl

/-! ## Each stage at an entry -/

theorem pre_apply (s : FVec Ideal S1x128 .f32) (x a : FVec Ideal S5000x128 .f32) (p : Fin 5000) (j : Fin 128) :
    pre s x a (ix2 p j) = s (ix2 (0 : Fin 1) j) * x (ix2 p j) + a (ix2 p j) := by
  unfold pre
  rw [shapeCast_self, shapeCast_self]
  show broadcastTo S5000x128 s broadcasts_S1x128_S5000x128 (ix2 p j) * x (ix2 p j) + a (ix2 p j) = _
  rw [broadcastTo_1b_ab_apply]

theorem layer_apply (h : FVec Ideal S5000x128 .bf16) (W : FVec Ideal S128x128 .f32) (b : FVec Ideal S1x128 .f32) (p : Fin 5000) (k : Fin 128) :
    layer h W b (ix2 p k) = (∑ j : Fin 128, h (ix2 p j) * W (ix2 j k)) + b (ix2 (0 : Fin 1) k) := by
  unfold layer
  rw [shapeCast_self]
  show matmul dot_S5000x128_S128x128_S5000x128_1_0_0_1_n_n none h (truncf .bf16 W bitsLt_bf16_f32) (constant (F := Ideal) S5000x128 .f32 0x00000000#32) (ix2 p k)
      + broadcastTo S5000x128 b broadcasts_S1x128_S5000x128 (ix2 p k) = _
  rw [broadcastTo_1b_ab_apply,
    PlainDot.matmul_zero_apply dot_S5000x128_S128x128_S5000x128_1_0_0_1_n_n none rfl rfl (fun _ _ => rfl) (fun _ _ => rfl) (fun _ _ => rfl) (fun _ _ => rfl)]
  rfl

theorem hidden_apply (s : FVec Ideal S1x128 .f32) (x a : FVec Ideal S5000x128 .f32) (W₁ : FVec Ideal S128x128 .f32) (b₁ : FVec Ideal S1x128 .f32)
    (W₂ : FVec Ideal S128x128 .f32) (b₂ : FVec Ideal S1x128 .f32) (p : Fin 5000) (c : Fin 128) :
    hidden s x a W₁ b₁ W₂ b₂ (ix2 p c)
      = NodeRow.mlp (fun j => s (ix2 (0 : Fin 1) j)) (fun j => x (ix2 p j)) (fun j => a (ix2 p j)) (fun j k => W₁ (ix2 j k))
          (fun k => b₁ (ix2 (0 : Fin 1) k)) (fun k c => W₂ (ix2 k c)) (fun c => b₂ (ix2 (0 : Fin 1) c)) c := by
  unfold hidden NodeRow.mlp
  rw [layer_apply]
  refine congrArg (· + b₂ (ix2 (0 : Fin 1) c)) (Finset.sum_congr rfl fun k _ => congrArg (· * W₂ (ix2 k c)) ?_)
  show max (layer (truncf .bf16 (pre s x a) bitsLt_bf16_f32) W₁ b₁ (ix2 p k)) (Ideal.ofBits .f32 0x00000000#32) = _
  rw [layer_apply, Ideal.ofBits_zero_f32]
  refine congrArg (fun z => max (z + b₁ (ix2 (0 : Fin 1) k)) 0) (Finset.sum_congr rfl fun j _ => congrArg (· * W₁ (ix2 j k)) ?_)
  exact pre_apply s x a p j

theorem colMean_apply (v : FVec Ideal S5000x128 .f32) (p : Fin 5000) (u : Fin 1) :
    colMean v (ix2 p u) = NodeRow.mean (Ideal.ofBits .f32 0x43000000#32) (fun j => v (ix2 p j)) := by
  unfold colMean NodeRow.mean
  show Ideal.div (shapeCast S5000x1 (multiReduction .add [1] S5000 v 0x00000000#32 reduces_S5000x128_S5000 (.inl rfl) rfl) shapeCasts_S5000_S5000x1 (ix2 p u))
      (Ideal.ofBits .f32 0x43000000#32) = _
  rw [Keepdims.shapeCast_a_a1_apply, Keepdims.rowSum_apply]

/-! ## The payloads at an entry -/

section
variable (s : FVec Ideal S1x128 .f32) (x a : FVec Ideal S5000x128 .f32) (W₁ : FVec Ideal S128x128 .f32) (b₁ : FVec Ideal S1x128 .f32)
  (W₂ : FVec Ideal S128x128 .f32) (b₂ : FVec Ideal S1x128 .f32)

/-- The perceptron's output row of block row `p`. -/
abbrev yrow (p : Fin 5000) : Fin 128 → EReal :=
  NodeRow.mlp (fun j => s (ix2 (0 : Fin 1) j)) (fun j => x (ix2 p j)) (fun j => a (ix2 p j)) (fun j k => W₁ (ix2 j k))
    (fun k => b₁ (ix2 (0 : Fin 1) k)) (fun k c => W₂ (ix2 k c)) (fun c => b₂ (ix2 (0 : Fin 1) c))

theorem pay2_apply (p : Fin 5000) (c : Fin 128) :
    k0_pay2 (F := Ideal) s x a W₁ b₁ W₂ b₂ (ix2 p c)
      = NodeRow.centred (Ideal.ofBits .f32 0x43000000#32) (yrow s x a W₁ b₁ W₂ b₂ p) c := by
  rw [pay2_eq]
  show hidden s x a W₁ b₁ W₂ b₂ (ix2 p c)
      - broadcastTo S5000x128 (colMean (hidden s x a W₁ b₁ W₂ b₂)) broadcasts_S5000x1_S5000x128 (ix2 p c) = _
  rw [Keepdims.broadcastTo_a1_ab_apply, colMean_apply, hidden_apply]
  unfold NodeRow.centred
  refine congrArg (fun f => _ - NodeRow.mean _ f) (funext fun j => ?_)
  exact hidden_apply s x a W₁ b₁ W₂ b₂ p j

theorem pay3_apply (p : Fin 5000) (u : Fin 1) :
    k0_pay3 (F := Ideal) s x a W₁ b₁ W₂ b₂ (ix2 p u)
      = NodeRow.variance (Ideal.ofBits .f32 0x43000000#32) (yrow s x a W₁ b₁ W₂ b₂ p) := by
  rw [pay3_eq, colMean_apply]
  unfold NodeRow.variance
  refine congrArg (NodeRow.mean _) (funext fun j => ?_)
  show k0_pay2 (F := Ideal) s x a W₁ b₁ W₂ b₂ (ix2 p j) * k0_pay2 (F := Ideal) s x a W₁ b₁ W₂ b₂ (ix2 p j) = _
  rw [pay2_apply]

end

/-- The last stage, for any centred block `d` and variance column `v`: scale by the inverse root, by `γ`, shift by `β`,
    rectify. -/
theorem pay1_apply (d : FVec Ideal S5000x128 .f32) (v : FVec Ideal S5000x1 .f32) (e : Ideal .f32) (γ β : FVec Ideal S1x128 .f32)
    (p : Fin 5000) (q : Fin 128) :
    k0_pay1 (F := Ideal) d v e γ β (ix2 p q)
      = max (d (ix2 p q) * Ideal.rsqrt (v (ix2 p (0 : Fin 1)) + e) * γ (ix2 (0 : Fin 1) q) + β (ix2 (0 : Fin 1) q)) 0 := by
  unfold k0_pay1
  rw [shapeCast_self, shapeCast_self]
  show max (d (ix2 p q) * broadcastTo S5000x128 (rsqrt (addf v (broadcast S5000x1 e))) broadcasts_S5000x1_S5000x128 (ix2 p q)
        * broadcastTo S5000x128 γ broadcasts_S1x128_S5000x128 (ix2 p q)
        + broadcastTo S5000x128 β broadcasts_S1x128_S5000x128 (ix2 p q)) (Ideal.ofBits .f32 0x00000000#32) = _
  rw [Keepdims.broadcastTo_a1_ab_apply, broadcastTo_1b_ab_apply, broadcastTo_1b_ab_apply, Ideal.ofBits_zero_f32]
  rfl

/-- The stored value at entry `(p, q)` of the block is the node-row function of row `p` of the two data blocks. -/
theorem stored_apply (x a : FVec Ideal S5000x128 .f32) (s : FVec Ideal S1x128 .f32) (W₁ : FVec Ideal S128x128 .f32) (b₁ : FVec Ideal S1x128 .f32)
    (W₂ : FVec Ideal S128x128 .f32) (b₂ γ β : FVec Ideal S1x128 .f32) (p : Fin 5000) (q : Fin 128) :
    k0_pay1 (F := Ideal) (k0_pay2 s x a W₁ b₁ W₂ b₂) (k0_pay3 s x a W₁ b₁ W₂ b₂) (Scalar.ofBits .f32 0x3727C5AC#32) γ β (ix2 p q)
      = NodeRow.norm (Ideal.ofBits .f32 0x43000000#32) (Ideal.ofBits .f32 0x3727C5AC#32) (yrow s x a W₁ b₁ W₂ b₂ p)
          (fun c => γ (ix2 (0 : Fin 1) c)) (fun c => β (ix2 (0 : Fin 1) c)) q := by
  rw [pay1_apply, pay2_apply, pay3_apply]
  rfl

end Cert.KernelIdeal.Row

end
-- ==== Proof.KernelHost.lean ====
/-
  What the host computes before the kernel's region, at any float instance.

  Before the launch the host forms the aggregated messages (a gather of the source nodes' features plus the embedded edge
  attributes, rectified, scatter-added into the target nodes), the scale `1 + eps` laid along a row, and the two biases
  and the normalisation's scale and shift as one-row matrices.  Each is read off the fold of the host operations at the
  buffer the region's window stages.
-/
import proofs.«126570_j74113955660246_2_alg».proof.Proof.Gen.KernelIdeal.Frame
import Idealize.ShloMosaic.Lib.StableHlo.Run

noncomputable section

namespace Cert.KernelIdeal.HostPre

open Cert.KernelIdeal Cert.KernelIdeal.Gen Idealize.ShloMosaic Idealize.ShloMosaic.TcCoe Idealize.SL.Sem
open Idealize.ShloMosaic.StableHlo

variable {F : FTy → Type} [FloatOps F]

/-! ## What the host computes before the region -/

/-- Row 0 of the edge list (the source nodes) as a flat index array. -/
def edgeRow0 (ei : IVec S2x600000 32) : IVec S600000 32 :=
  shapeCast S600000 (extractStridedSlice S1x600000 ![0, 0] ei slices_S2x600000_S1x600000_0_0) shapeCasts_S1x600000_S600000
/-- Row 1 of the edge list (the target nodes) as a flat index array. -/
def edgeRow1 (ei : IVec S2x600000 32) : IVec S600000 32 :=
  shapeCast S600000 (extractStridedSlice S1x600000 ![1, 0] ei slices_S2x600000_S1x600000_1_0) shapeCasts_S1x600000_S600000

/-- Each edge's message (its source node's features plus its embedded attributes, rectified) added into its target node's row. -/
def agg (x : FVec F S100000x128 .f32) (ei : IVec S2x600000 32) (ea : FVec F S600000x6 .f32) (We : FVec F S6x128 .f32)
    (be : FVec F S128 .f32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (edgeRow1 ei))
    (maximumf
      (addf
        (Host.gather gather_S100000x128_S600000x1_S600000x128_1_0_n_n_0_1_1128 x
          (broadcastInDim S600000x1 ![0] bcast_S600000_S600000x1_0
            (select (cmpi .slt (edgeRow0 ei) (broadcastInDim S600000 ![] bcast_S_S600000 (constantI S_ 32 0#32)))
              (addi (edgeRow0 ei) (broadcastInDim S600000 ![] bcast_S_S600000 (constantI S_ 32 100000#32)))
              (edgeRow0 ei))))
        (addf (Host.dotGeneral dot_S600000x6_S6x128_S600000x128_1_0_0_1_n_n none ea We)
          (broadcastInDim S600000x128 ![0, 1] bcast_S1x128_S600000x128_0_1 (broadcastInDim S1x128 ![1] bcast_S128_S1x128_1 be))))
      (broadcastInDim S600000x128 ![] bcast_S_S600000x128 (constant S_ .f32 0x00000000#32)))

variable (m : (ℓ : Loc nD τ sig) → Buf (Elt F) ℓ)

/-- The aggregate of the launch arguments. -/
abbrev aggArr (c : Dev nD) : FVec F S100000x128 .f32 :=
  agg (m ((c : Thread nD τ).loc main_arg0)) (m ((c : Thread nD τ).loc main_arg1)) (m ((c : Thread nD τ).loc main_arg2))
    (m ((c : Thread nD τ).loc main_arg4)) (m ((c : Thread nD τ).loc main_arg5))

set_option maxHeartbeats 4000000 in
/-- The region finds the aggregate in its second operand's array. -/
theorem V_agg (c : Dev nD) : (V m c main_v19 : FVec F S100000x128 .f32) = aggArr m c := by
  dsimp only [V]
  simp only [hostOps0, hostOps0_1, hostOps0_2, List.flatten_cons, List.flatten_nil, List.append_nil, List.cons_append, List.nil_append]
  after_results_simp
  rfl

/-- The region finds `1 + eps` laid along a row in its third operand's array. -/
theorem V_scale (c : Dev nD) : (V m c main_v21 : FVec F S1x128 .f32)
    = broadcastInDim S1x128 ![] bcast_S_S1x128 (addf (constant (F := F) S_ .f32 0x3F800000#32) (m ((c : Thread nD τ).loc main_arg6))) := by
  dsimp only [V]
  simp only [hostOps0, hostOps0_1, hostOps0_2, List.flatten_cons, List.flatten_nil, List.append_nil, List.cons_append, List.nil_append]
  after_results

/-- The region finds the first bias as a one-row matrix, … -/
theorem V_b1 (c : Dev nD) : (V m c main_v22 : FVec F S1x128 .f32) = shapeCast S1x128 (m ((c : Thread nD τ).loc main_arg8)) shapeCasts_S128_S1x128 := by
  dsimp only [V]
  simp only [hostOps0, hostOps0_1, hostOps0_2, List.flatten_cons, List.flatten_nil, List.append_nil, List.cons_append, List.nil_append]
  after_results
  rfl
/-- … the second bias, … -/
theorem V_b2 (c : Dev nD) : (V m c main_v23 : FVec F S1x128 .f32) = shapeCast S1x128 (m ((c : Thread nD τ).loc main_arg10)) shapeCasts_S128_S1x128 := by
  dsimp only [V]
  simp only [hostOps0, hostOps0_1, hostOps0_2, List.flatten_cons, List.flatten_nil, List.append_nil, List.cons_append, List.nil_append]
  after_results
  rfl
/-- … the normalisation's scale … -/
theorem V_gamma (c : Dev nD) : (V m c main_v24 : FVec F S1x128 .f32) = shapeCast S1x128 (m ((c : Thread nD τ).loc main_arg11)) shapeCasts_S128_S1x128 := by
  dsimp only [V]
  simp only [hostOps0, hostOps0_1, hostOps0_2, List.flatten_cons, List.flatten_nil, List.append_nil, List.cons_append, List.nil_append]
  after_results
  rfl
/-- … and its shift. -/
theorem V_beta (c : Dev nD) : (V m c main_v25 : FVec F S1x128 .f32) = shapeCast S1x128 (m ((c : Thread nD τ).loc main_arg12)) shapeCasts_S128_S1x128 := by
  dsimp only [V]
  simp only [hostOps0, hostOps0_1, hostOps0_2, List.flatten_cons, List.flatten_nil, List.append_nil, List.cons_append, List.nil_append]
  after_results
  rfl

end Cert.KernelIdeal.HostPre

end
-- ==== Proof.KernelArr.lean ====
/-
  From the kernel's blocks to its whole result array.

  The grid has 20 points; point `t` reads rows `5000·t … 5000·t + 4999` of the node features and of the aggregated
  messages, the whole of every parameter array, and writes the same rows of the result.  Before the region the host has
  computed the aggregate (gather, edge embedding, rectifier, scatter-add), the scale `1 + eps` laid along a row, and the
  four bias-like vectors as one-row matrices.  Since the body's value at a block entry is the node-row function of that
  block row (module `KernelRow`), what point `t` writes back is block `t` of the layer function `NodeRow.layerOut` of
  the whole arrays; the 20 blocks cover every row, so the result array is that function.
-/
import proofs.«126570_j74113955660246_2_alg».proof.Proof.Gen.KernelIdeal.Value
import proofs.«126570_j74113955660246_2_alg».proof.Proof.KernelRow
import proofs.«126570_j74113955660246_2_alg».proof.Proof.KernelHost
import proofs.«126570_j74113955660246_2_alg».proof.Proof.NodeRow
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.KernelIdeal.HostPre
open Idealize.ShloMosaic.Pipeline (Dat)

variable (m : (ℓ : Loc nD τ sig) → Buf (Elt Ideal) ℓ) (ρ : Dev nD → PrngReg)

/-! ## The windows' blocks -/

/-- The printed index maps over the grid: the three row-tiled windows are at block row `t`, every other window at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of block `t` is row `5000·t + p` of the array. -/
def rowOf (t : Fin cfg0.N) (p : Fin 5000) : Fin 100000 :=
  ⟨5000 * t.val + p.val, by have := t.isLt; have hN : cfg0.N = 20 := N_0; have := p.isLt; omega⟩

theorem xblk_apply (c : Dev nD) (t : Fin cfg0.N) (p : Fin 5000) (j : Fin 128) :
    (iblk m c 0 t : Vec Ideal S5000x128 .f32) (ix2 p j)
      = (m ((c : Thread nD τ).loc main_arg0) : S100000x128.Idx → EReal) (ix2 (rowOf t p) j) := by
  obtain ⟨h0, h1, -⟩ := idx_facts t
  unfold iblk
  rw [View.read_apply]
  refine (congrFun (V_main_arg0 m c) _).trans (congrArg (m ((c : Thread nD τ).loc main_arg0) : S100000x128.Idx → EReal) (funext fun a => Fin.ext ?_))
  match a with
  | ⟨0, _⟩ => show win0_0.index t (0 : Fin 2) * 5000 + 1 * p.val = 5000 * t.val + p.val; rw [h0]; omega
  | ⟨1, _⟩ => show win0_0.index t (1 : Fin 2) * 128 + 1 * j.val = j.val; rw [h1]; omega

/-- Window 1's block at point `t`, read off ANY array: row `p` of the block is row `5000·t + p`. -/
theorem read_blk1 (A : FVec Ideal S100000x128 .f32) (t : Fin cfg0.N) (p : Fin 5000) (j : Fin 128) :
    (((cfg0.win 1).blk t).view.read (Elt Ideal) A : Vec Ideal S5000x128 .f32) (ix2 p j) = A (ix2 (rowOf t p) j) := by
  obtain ⟨-, -, h0, h1, -⟩ := idx_facts t
  have he : ((cfg0.win 1).blk t).view.emb (ix2 p j : S5000x128.Idx) = (ix2 (rowOf t p) j : S100000x128.Idx) := funext fun a => Fin.ext (by
    match a with
    | ⟨0, _⟩ => show win0_1.index t (0 : Fin 2) * 5000 + 1 * p.val = 5000 * t.val + p.val; rw [h0]; omega
    | ⟨1, _⟩ => show win0_1.index t (1 : Fin 2) * 128 + 1 * j.val = j.val; rw [h1]; omega)
  rw [View.read_apply, he]
  rfl

theorem ablk_apply (c : Dev nD) (t : Fin cfg0.N) (p : Fin 5000) (j : Fin 128) :
    (iblk m c 1 t : Vec Ideal S5000x128 .f32) (ix2 p j) = aggArr m c (ix2 (rowOf t p) j) := by
  have hA : V m c (Pipeline.arrRef spec0 1) = aggArr m c := V_agg m c
  unfold iblk
  rw [hA]
  exact read_blk1 (aggArr m c) t p j

theorem sblk_apply (c : Dev nD) (t : Fin cfg0.N) (j : Fin 128) :
    (iblk m c 2 t : Vec Ideal S1x128 .f32) (ix2 (0 : Fin 1) j)
      = Ideal.ofBits .f32 0x3F800000#32 + (m ((c : Thread nD τ).loc main_arg6) : S_.Idx → EReal) ix0 := by
  unfold iblk
  rw [View.read_apply]
  refine (congrFun (V_scale m c) _).trans ?_
  rw [broadcastInDim_scalar_apply]
  rfl

theorem w1blk_apply (c : Dev nD) (t : Fin cfg0.N) (j k : Fin 128) :
    (iblk m c 3 t : Vec Ideal S128x128 .f32) (ix2 j k) = (m ((c : Thread nD τ).loc main_arg7) : S128x128.Idx → EReal) (ix2 j k) := by
  obtain ⟨-, -, -, -, -, -, h0, h1, -⟩ := idx_facts t
  unfold iblk
  rw [View.read_apply]
  refine (congrFun (V_main_arg7 m c) _).trans (congrArg (m ((c : Thread nD τ).loc main_arg7) : S128x128.Idx → EReal) (funext fun a => Fin.ext ?_))
  match a with
  | ⟨0, _⟩ => show win0_3.index t (0 : Fin 2) * 128 + 1 * j.val = j.val; rw [h0]; omega
  | ⟨1, _⟩ => show win0_3.index t (1 : Fin 2) * 128 + 1 * k.val = k.val; rw [h1]; omega

theorem w2blk_apply (c : Dev nD) (t : Fin cfg0.N) (j k : Fin 128) :
    (iblk m c 5 t : Vec Ideal S128x128 .f32) (ix2 j k) = (m ((c : Thread nD τ).loc main_arg9) : S128x128.Idx → EReal) (ix2 j k) := by
  obtain ⟨-, -, -, -, -, -, -, -, -, -, h0, h1, -⟩ := idx_facts t
  unfold iblk
  rw [View.read_apply]
  refine (congrFun (V_main_arg9 m c) _).trans (congrArg (m ((c : Thread nD τ).loc main_arg9) : S128x128.Idx → EReal) (funext fun a => Fin.ext ?_))
  match a with
  | ⟨0, _⟩ => show win0_5.index t (0 : Fin 2) * 128 + 1 * j.val = j.val; rw [h0]; omega
  | ⟨1, _⟩ => show win0_5.index t (1 : Fin 2) * 128 + 1 * k.val = k.val; rw [h1]; omega

/-- A length-128 vector as a one-row matrix, read through a window at block `(0, 0)`. -/
theorem rowblk_aux (b : FVec Ideal S128 .f32) (i : S1x128.Idx) (k : Fin 128) (hi0 : (i 0).val = 0) (hi1 : (i 1).val = k.val) :
    shapeCast S1x128 b shapeCasts_S128_S1x128 i = b (ix1 k) := by
  have hi : i = ix2 (0 : Fin 1) k := funext fun a => Fin.ext (by
    match a with
    | ⟨0, _⟩ => exact hi0
    | ⟨1, _⟩ => exact hi1)
  rw [hi, shapeCast_a_1a_apply]

theorem b1blk_apply (c : Dev nD) (t : Fin cfg0.N) (k : Fin 128) :
    (iblk m c 4 t : Vec Ideal S1x128 .f32) (ix2 (0 : Fin 1) k) = (m ((c : Thread nD τ).loc main_arg8) : S128.Idx → EReal) (ix1 k) := by
  obtain ⟨-, -, -, -, -, -, -, -, h0, h1, -⟩ := idx_facts t
  unfold iblk
  rw [View.read_apply]
  refine (congrFun (V_b1 m c) _).trans (rowblk_aux _ _ k ?_ ?_)
  · show win0_4.index t (0 : Fin 2) * 1 + 1 * 0 = 0; rw [h0]
  · show win0_4.index t (1 : Fin 2) * 128 + 1 * k.val = k.val; rw [h1]; omega

theorem b2blk_apply (c : Dev nD) (t : Fin cfg0.N) (k : Fin 128) :
    (iblk m c 6 t : Vec Ideal S1x128 .f32) (ix2 (0 : Fin 1) k) = (m ((c : Thread nD τ).loc main_arg10) : S128.Idx → EReal) (ix1 k) := by
  obtain ⟨-, -, -, -, -, -, -, -, -, -, -, -, h0, h1, -⟩ := idx_facts t
  unfold iblk
  rw [View.read_apply]
  refine (congrFun (V_b2 m c) _).trans (rowblk_aux _ _ k ?_ ?_)
  · show win0_6.index t (0 : Fin 2) * 1 + 1 * 0 = 0; rw [h0]
  · show win0_6.index t (1 : Fin 2) * 128 + 1 * k.val = k.val; rw [h1]; omega

theorem gblk_apply (c : Dev nD) (t : Fin cfg0.N) (k : Fin 128) :
    (iblk m c 7 t : Vec Ideal S1x128 .f32) (ix2 (0 : Fin 1) k) = (m ((c : Thread nD τ).loc main_arg11) : S128.Idx → EReal) (ix1 k) := by
  obtain ⟨-, -, -, -, -, -, -, -, -, -, -, -, -, -, h0, h1, -⟩ := idx_facts t
  unfold iblk
  rw [View.read_apply]
  refine (congrFun (V_gamma m c) _).trans (rowblk_aux _ _ k ?_ ?_)
  · show win0_7.index t (0 : Fin 2) * 1 + 1 * 0 = 0; rw [h0]
  · show win0_7.index t (1 : Fin 2) * 128 + 1 * k.val = k.val; rw [h1]; omega

theorem bblk_apply (c : Dev nD) (t : Fin cfg0.N) (k : Fin 128) :
    (iblk m c 8 t : Vec Ideal S1x128 .f32) (ix2 (0 : Fin 1) k) = (m ((c : Thread nD τ).loc main_arg12) : S128.Idx → EReal) (ix1 k) := by
  obtain ⟨-, -, -, -, -, -, -, -, -, -, -, -, -, -, -, -, h0, h1, -⟩ := idx_facts t
  unfold iblk
  rw [View.read_apply]
  refine (congrFun (V_beta m c) _).trans (rowblk_aux _ _ k ?_ ?_)
  · show win0_8.index t (0 : Fin 2) * 1 + 1 * 0 = 0; rw [h0]
  · show win0_8.index t (1 : Fin 2) * 128 + 1 * k.val = k.val; rw [h1]; omega

/-! ## What a point writes back, and the whole array -/

/-- The layer function of the launch arguments and their aggregate. -/
abbrev target (c : Dev nD) : S100000x128.Idx → EReal :=
  NodeRow.layerOut (m ((c : Thread nD τ).loc main_arg0)) (aggArr m c)
    (Ideal.ofBits .f32 0x3F800000#32 + (m ((c : Thread nD τ).loc main_arg6) : S_.Idx → EReal) ix0)
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

theorem hz : (![0, 0] : Fin 2 → Nat) = fun _ => 0 := funext fun a => by fin_cases a <;> rfl

/-- The body's value at entry `(p, q)` of point `t`'s block is the layer function at row `5000·t + p`, lane `q`. -/
theorem point_apply (c : Dev nD) (t : Fin cfg0.N) (p : Fin 5000) (q : Fin 128) :
    k0_pay1 (F := Ideal) (k0_pay2 (iblk m c 2 t) (iblk m c 0 t) (iblk m c 1 t) (iblk m c 3 t) (iblk m c 4 t) (iblk m c 5 t) (iblk m c 6 t))
        (k0_pay3 (iblk m c 2 t) (iblk m c 0 t) (iblk m c 1 t) (iblk m c 3 t) (iblk m c 4 t) (iblk m c 5 t) (iblk m c 6 t))
        (Scalar.ofBits .f32 0x3727C5AC#32) (iblk m c 7 t) (iblk m c 8 t) (ix2 p q)
      = target m c (ix2 (rowOf t p) q) := by
  rw [Row.stored_apply]
  refine Eq.trans ?_ (NodeRow.layerOut_ix2 _ _ _ _ _ _ _ _ _ (rowOf t p) q).symm
  simp only [Row.yrow, xblk_apply, ablk_apply, sblk_apply, w1blk_apply, w2blk_apply, b1blk_apply, b2blk_apply, gblk_apply, bblk_apply]

/-- The same at any block index `y` and the array index `i` it sits at. -/
theorem point_at (c : Dev nD) (t : Fin cfg0.N) (y : S5000x128.Idx) (i : S100000x128.Idx)
    (hi0 : (i 0).val = 5000 * t.val + (y 0).val) (hi1 : (i 1).val = (y 1).val) :
    k0_pay1 (F := Ideal) (k0_pay2 (iblk m c 2 t) (iblk m c 0 t) (iblk m c 1 t) (iblk m c 3 t) (iblk m c 4 t) (iblk m c 5 t) (iblk m c 6 t))
        (k0_pay3 (iblk m c 2 t) (iblk m c 0 t) (iblk m c 1 t) (iblk m c 3 t) (iblk m c 4 t) (iblk m c 5 t) (iblk m c 6 t))
        (Scalar.ofBits .f32 0x3727C5AC#32) (iblk m c 7 t) (iblk m c 8 t) y
      = target m c i := by
  obtain ⟨p, q, rfl⟩ : ∃ (p : Fin 5000) (q : Fin 128), y = ix2 p q := ⟨y 0, y 1, eq_ix2 y⟩
  have hi : i = ix2 (rowOf t p) q := funext fun a => Fin.ext (by
    match a with
    | ⟨0, _⟩ => exact hi0
    | ⟨1, _⟩ => exact hi1)
  rw [hi]
  exact point_apply m c t p q

/-- What point `t` writes back is block `t` of the layer function. -/
theorem flushed_eq (c : Dev nD) (t : Fin cfg0.N) :
    (dats m 0 c).flushed 9 t = ((cfg0.win 9).blk t).view.read (Elt Ideal) (target m c) := by
  obtain ⟨-, -, -, -, -, -, -, -, -, -, -, -, -, -, -, -, -, -, h0, h1⟩ := idx_facts t
  rw [flushed9]
  unfold out0_9
  rw [View.canon_unit_zero hz]
  simp only [View.ld_unit_zero (S := S5000x128) hz, View.ld_unit_zero (S := S1x128) hz, View.ld_unit_zero (S := S128x128) hz]
  funext y
  rw [View.read_apply]
  refine point_at m c t y (((cfg0.win 9).blk t).view.emb y) ?_ ?_
  · show win0_9.index t (0 : Fin 2) * 5000 + 1 * (y 0).val = 5000 * t.val + (y 0).val
    rw [h0]; omega
  · show win0_9.index t (1 : Fin 2) * 128 + 1 * (y 1).val = (y 1).val
    rw [h1]; omega

/-- The 20 blocks cover the array: row `r` is in block `r / 5000`. -/
theorem cover (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 20 := N_0
  let t : Fin cfg0.N := ⟨(i 0).val / 5000, by omega⟩
  have ht : t.val = (i 0).val / 5000 := rfl
  obtain ⟨-, -, -, -, -, -, -, -, -, -, -, -, -, -, -, -, -, -, h0, h1⟩ := idx_facts t
  refine ⟨t, flush0_9 t, ?_⟩
  show i ∈ ((View.whole main_v26).slice (win0_9.rect t)).set
  rw [View.set_slice_whole, Rect.mem_set_unit]
  intro a
  match a with
  | ⟨0, _⟩ =>
    show win0_9.index t (0 : Fin 2) * 5000 ≤ (i 0).val ∧ (i 0).val < win0_9.index t (0 : Fin 2) * 5000 + 5000
    rw [h0, ht]; omega
  | ⟨1, _⟩ =>
    show win0_9.index t (1 : Fin 2) * 128 ≤ (i 1).val ∧ (i 1).val < win0_9.index t (1 : Fin 2) * 128 + 128
    rw [h1]; omega

/-- The result array after the run is the layer function. -/
theorem final (c : Dev nD) : (dats m 0 c).arrAt 9 cfg0.N = target m c :=
  (dats m 0 c).arrAt_eq_of_cover 9 (target m c) (fun t _ => flushed_eq m c t) cover

end Cert.KernelIdeal.Arr

end
-- ==== Proof.RefRun.lean ====
/-
  The reference program's @main as one straight line of host operations, and its run.

  @main calls four outlined functions (the rectifier three times, and the variance, which itself calls the
  selection by a condition).  Unfolding each callee at its call site over that call's own buffers leaves 88
  operations in program order: 18 up to the first rectifier and its 3, 4 building the scatter-add of the messages
  into the nodes, 9 up to the second rectifier and its 3, 11 up to the variance, the variance's 20 and the
  selection's 3, and 14 after it ending in the last rectifier's 3.  Every weakly fair execution of @main ends with
  each buffer at the fold of those operations over the launch contents.
-/
import proofs.«126570_j74113955660246_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the outlined functions unfolded at their calls. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg2 main_arg4 main_v4 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S600000x128 ![0, 1] bcast_S1x128_S600000x128_0_1 : (⟨S1x128, .f32⟩ : BufTy).Contents (Elt F) → (⟨S600000x128, .f32⟩ : BufTy).Contents (Elt F)),
    binary main_v4 main_v6 main_v7 (addf : (⟨S600000x128, .f32⟩ : BufTy).Contents (Elt F) → (⟨S600000x128, .f32⟩ : BufTy).Contents (Elt F) → (⟨S600000x128, .f32⟩ : BufTy).Contents (Elt F)),
    nullary main_c (constantI S_ 32 0#32),
    unary main_c main_v8 (broadcastInDim S600000 ![] bcast_S_S600000 : (⟨S_, .i32⟩ : BufTy).Contents (Elt F) → (⟨S600000, .i32⟩ : BufTy).Contents (Elt F)),
    binary main_v1 main_v8 main_v9 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v10 (broadcastInDim S600000 ![] bcast_S_S600000 : (⟨S_, .i32⟩ : BufTy).Contents (Elt F) → (⟨S600000, .i32⟩ : BufTy).Contents (Elt F)),
    binary main_v1 main_v10 main_v11 (addi : (⟨S600000, .i32⟩ : BufTy).Contents (Elt F) → (⟨S600000, .i32⟩ : BufTy).Contents (Elt F) → (⟨S600000, .i32⟩ : BufTy).Contents (Elt F)),
    ternary main_v9 main_v11 main_v1 main_v12 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v12 main_v13 (broadcastInDim S600000x1 ![0] bcast_S600000_S600000x1_0 : (⟨S600000, .i32⟩ : BufTy).Contents (Elt F) → (⟨S600000x1, .i32⟩ : BufTy).Contents (Elt F)),
    binary main_arg0 main_v13 main_v14 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v14 main_v7 main_v15 (addf : (⟨S600000x128, .f32⟩ : BufTy).Contents (Elt F) → (⟨S600000x128, .f32⟩ : BufTy).Contents (Elt F) → (⟨S600000x128, .f32⟩ : BufTy).Contents (Elt F)),
    TRef.nullary main_call0.cst (constant S_ .f32 0x00000000#32),
    TRef.unary main_call0.cst main_call0.v0 (broadcastInDim S600000x128 ![] bcast_S_S600000x128),
    TRef.binary (.of main_v15) main_call0.v0 main_call0.v1 maximumf,
    nullary main_cst (constant S_ .f32 0x00000000#32),
    unary main_cst main_v17 (broadcastInDim S100000x128 ![] bcast_S_S100000x128 : (⟨S_, .f32⟩ : BufTy).Contents (Elt F) → (⟨S100000x128, .f32⟩ : BufTy).Contents (Elt F)),
    unary main_v3 main_v18 (broadcastInDim S600000x1 ![0] bcast_S600000_S600000x1_0 : (⟨S600000, .i32⟩ : BufTy).Contents (Elt F) → (⟨S600000x1, .i32⟩ : BufTy).Contents (Elt F)),
    ternary main_v17 main_v18 main_v16 main_v19 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_1 (constant S_ .f32 0x3F800000#32),
    binary main_cst_1 main_arg6 main_v20 (addf : (⟨S_, .f32⟩ : BufTy).Contents (Elt F) → (⟨S_, .f32⟩ : BufTy).Contents (Elt F) → (⟨S_, .f32⟩ : BufTy).Contents (Elt F)),
    unary main_v20 main_v21 (broadcastInDim S100000x128 ![] bcast_S_S100000x128 : (⟨S_, .f32⟩ : BufTy).Contents (Elt F) → (⟨S100000x128, .f32⟩ : BufTy).Contents (Elt F)),
    binary main_v21 main_arg0 main_v22 (mulf : (⟨S100000x128, .f32⟩ : BufTy).Contents (Elt F) → (⟨S100000x128, .f32⟩ : BufTy).Contents (Elt F) → (⟨S100000x128, .f32⟩ : BufTy).Contents (Elt F)),
    binary main_v22 main_v19 main_v23 (addf : (⟨S100000x128, .f32⟩ : BufTy).Contents (Elt F) → (⟨S100000x128, .f32⟩ : BufTy).Contents (Elt F) → (⟨S100000x128, .f32⟩ : BufTy).Contents (Elt F)),
    binary main_v23 main_arg7 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v27) main_call1.v0 main_call1.v1 maximumf,
    binary main_v28 main_arg9 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    binary main_v32 main_cst_2 main_v33 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v33 main_v34 (broadcastInDim S100000x1 ![0] bcast_S100000_S100000x1_0 : (⟨S100000, .f32⟩ : BufTy).Contents (Elt F) → (⟨S100000x1, .f32⟩ : BufTy).Contents (Elt F)),
    nullary main_cst_3 (constant S_ .f32 0x43000000#32),
    unary main_cst_3 main_v35 (broadcastInDim S100000x1 ![] bcast_S_S100000x1 : (⟨S_, .f32⟩ : BufTy).Contents (Elt F) → (⟨S100000x1, .f32⟩ : BufTy).Contents (Elt F)),
    binary main_v34 main_v35 main_v36 (Host.divf : (⟨S100000x1, .f32⟩ : BufTy).Contents (Elt F) → (⟨S100000x1, .f32⟩ : BufTy).Contents (Elt F) → (⟨S100000x1, .f32⟩ : BufTy).Contents (Elt F)),
    nullary main_c_4 (constantI S_ 32 0#32),
    TRef.nullary main_call2.cst (constant S_ .f32 0x00000000#32),
    TRef.binary (.of main_v32) main_call2.cst main_call2.v0 (fun x v => Host.reduceAdd x v reducesTo_S100000x128_S100000_d1 h_S_),
    TRef.unary main_call2.v0 main_call2.v1 (broadcastInDim S100000x1 ![0] bcast_S100000_S100000x1_0),
    TRef.nullary main_call2.cst_0 (constant S_ .f32 0x43000000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x128 ![0, 1] bcast_S100000x1_S100000x128_0_1),
    TRef.binary (.of main_v32) main_call2.v4 main_call2.v5 subf,
    TRef.binary main_call2.v5 main_call2.v5 main_call2.v6 mulf,
    TRef.unary (.of main_c_4) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S100000x1 ![] bcast_S_S100000x1),
    TRef.ternary main_call2.v13 main_call2.v12 main_call2.call0.v1 main_call2.call0.v2 (fun p a b => select (broadcastInDim S100000x1 ![] bcast_S_S100000x1 p) a b),
    unary main_v36 main_v38 (broadcastInDim S100000x128 ![0, 1] bcast_S100000x1_S100000x128_0_1 : (⟨S100000x1, .f32⟩ : BufTy).Contents (Elt F) → (⟨S100000x128, .f32⟩ : BufTy).Contents (Elt F)),
    binary main_v32 main_v38 main_v39 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v40 (broadcastInDim S100000x1 ![] bcast_S_S100000x1 : (⟨S_, .f32⟩ : BufTy).Contents (Elt F) → (⟨S100000x1, .f32⟩ : BufTy).Contents (Elt F)),
    binary main_v37 main_v40 main_v41 (addf : (⟨S100000x1, .f32⟩ : BufTy).Contents (Elt F) → (⟨S100000x1, .f32⟩ : BufTy).Contents (Elt F) → (⟨S100000x1, .f32⟩ : BufTy).Contents (Elt F)),
    unary main_v41 main_v42 (Host.rsqrt : (⟨S100000x1, .f32⟩ : BufTy).Contents (Elt F) → (⟨S100000x1, .f32⟩ : BufTy).Contents (Elt F)),
    unary main_v42 main_v43 (broadcastInDim S100000x128 ![0, 1] bcast_S100000x1_S100000x128_0_1 : (⟨S100000x1, .f32⟩ : BufTy).Contents (Elt F) → (⟨S100000x128, .f32⟩ : BufTy).Contents (Elt F)),
    binary main_v39 main_v43 main_v44 (mulf : (⟨S100000x128, .f32⟩ : BufTy).Contents (Elt F) → (⟨S100000x128, .f32⟩ : BufTy).Contents (Elt F) → (⟨S100000x128, .f32⟩ : BufTy).Contents (Elt F)),
    unary main_arg11 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (mulf : (⟨S100000x128, .f32⟩ : BufTy).Contents (Elt F) → (⟨S100000x128, .f32⟩ : BufTy).Contents (Elt F) → (⟨S100000x128, .f32⟩ : BufTy).Contents (Elt F)),
    unary main_arg12 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v50) main_call3.v0 main_call3.v1 maximumf ]

-- the chain of binds is re-associated once per statement
set_option maxRecDepth 4096 in
set_option maxHeartbeats 4000000 in
/-- @main is that straight line: the callees' bodies unfolded and sequencing re-associated. -/
theorem main_eq (c : Dev nD) : main (F := F) c = seq ops := by
  simp only [main, main_part0, main_part1, fn_relu.body, fn_relu_0.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- From any memory with zero counters every weakly fair execution of @main terminates, and each buffer ends at the
    fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as a term of its arguments, built from named stages.

  The straight line of operations composes to: the aggregated messages (a gather of the source nodes' features plus the
  edge embedding, rectified, scatter-added to the target nodes); the scaled features plus the aggregate; two affine
  layers with a rectifier between them; the row mean and the centred rows; the variance (the mean of the squared
  deviations, through the selection on the divisor's sign that the variance function carries); and the scale by the
  inverse root, by `γ`, the shift by `β` and the last rectifier.  Each stage is one definition over whole arrays, so
  that later modules can read them at an index one at a time; the fold of the operations at the result buffer is their
  composition.
-/
import proofs.«126570_j74113955660246_2_alg».proof.Proof.RefRun

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The aggregated messages -/

/-- Row `k` of the edge list as a flat index array. -/
def edgeRow0 (ei : IVec S2x600000 32) : IVec S600000 32 :=
  shapeCast S600000 (extractStridedSlice S1x600000 ![0, 0] ei slices_S2x600000_S1x600000_0_0) shapeCasts_S1x600000_S600000
@[inherit_doc edgeRow0]
def edgeRow1 (ei : IVec S2x600000 32) : IVec S600000 32 :=
  shapeCast S600000 (extractStridedSlice S1x600000 ![1, 0] ei slices_S2x600000_S1x600000_1_0) shapeCasts_S1x600000_S600000

/-- Each edge's message (its source node's features plus its embedded attributes, rectified) added into its target node's row. -/
def agg (x : FVec F S100000x128 .f32) (ei : IVec S2x600000 32) (ea : FVec F S600000x6 .f32) (We : FVec F S6x128 .f32) (be : FVec F S128 .f32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (edgeRow1 ei))
    (maximumf
      (addf
        (Host.gather gather_S100000x128_S600000x1_S600000x128_1_0_n_n_0_1_1128 x
          (broadcastInDim S600000x1 ![0] bcast_S600000_S600000x1_0
            (select (cmpi .slt (edgeRow0 ei) (broadcastInDim S600000 ![] bcast_S_S600000 (constantI S_ 32 0#32)))
              (addi (edgeRow0 ei) (broadcastInDim S600000 ![] bcast_S_S600000 (constantI S_ 32 100000#32)))
              (edgeRow0 ei))))
        (addf (Host.dotGeneral dot_S600000x6_S6x128_S600000x128_1_0_0_1_n_n none ea We)
          (broadcastInDim S600000x128 ![0, 1] bcast_S1x128_S600000x128_0_1 (broadcastInDim S1x128 ![1] bcast_S128_S1x128_1 be))))
      (broadcastInDim S600000x128 ![] bcast_S_S600000x128 (constant S_ .f32 0x00000000#32)))

/-! ## The node stages -/

/-- `1 + eps`. -/
def scale (eps : FVec F S_ .f32) : FVec F S_ .f32 := addf (constant S_ .f32 0x3F800000#32) eps

/-- The scaled features plus the aggregate. -/
def pre (s : FVec F S_ .f32) (x a : FVec F S100000x128 .f32) : FVec F S100000x128 .f32 :=
  addf (mulf (broadcastInDim S100000x128 ![] bcast_S_S100000x128 s) x) a

/-- One affine layer. -/
def layer (h : FVec F S100000x128 .f32) (W : FVec F S128x128 .f32) (b : FVec F S128 .f32) : FVec F S100000x128 .f32 :=
  addf (Host.dotGeneral dot_S100000x128_S128x128_S100000x128_1_0_0_1_n_n none h W)
    (broadcastInDim S100000x128 ![0, 1] bcast_S1x128_S100000x128_0_1 (broadcastInDim S1x128 ![1] bcast_S128_S1x128_1 b))

/-- The rectifier. -/
def relu (v : FVec F S100000x128 .f32) : FVec F S100000x128 .f32 :=
  maximumf v (broadcastInDim S100000x128 ![] bcast_S_S100000x128 (constant S_ .f32 0x00000000#32))

/-- The perceptron's output. -/
def hidden (s : FVec F S_ .f32) (x a : FVec F S100000x128 .f32) (W₁ : FVec F S128x128 .f32) (b₁ : FVec F S128 .f32) (W₂ : FVec F S128x128 .f32) (b₂ : FVec F S128 .f32) : FVec F S100000x128 .f32 :=
  layer (relu (layer (pre s x a) W₁ b₁)) W₂ b₂

/-- Each row's sum divided by `den`, as a column. -/
def colMean (v : FVec F S100000x128 .f32) (den : FVec F S_ .f32) : FVec F S100000x1 .f32 :=
  Host.divf
    (broadcastInDim S100000x1 ![0] bcast_S100000_S100000x1_0
      (Host.reduceAdd v (constant S_ .f32 0x00000000#32) reducesTo_S100000x128_S100000_d1 h_S_))
    (broadcastInDim S100000x1 ![] bcast_S_S100000x1 den)

/-- The rows with their means removed. -/
def centred (y : FVec F S100000x128 .f32) : FVec F S100000x128 .f32 :=
  subf y (broadcastInDim S100000x128 ![0, 1] bcast_S100000x1_S100000x128_0_1 (colMean y (constant S_ .f32 0x43000000#32)))

/-- The variance's divisor: the row length minus the correction, which is the integer zero converted. -/
def varDen : FVec F S_ .f32 := subf (constant S_ .f32 0x43000000#32) (sitofp .f32 (constantI S_ 32 0#32))

/-- The variance column: the mean of the squared deviations where the divisor is positive, the not-a-number pattern otherwise. -/
def variance (y : FVec F S100000x128 .f32) : FVec F S100000x1 .f32 :=
  select (broadcastInDim S100000x1 ![] bcast_S_S100000x1 (cmpf .ogt (varDen (F := F)) (constant S_ .f32 0x00000000#32)))
    (colMean (mulf (centred y) (centred y)) varDen)
    (broadcastInDim S100000x1 ![] bcast_S_S100000x1 (id (constant S_ .f32 0x7FC00000#32)))

/-- The normalised, scaled, shifted and rectified rows. -/
def out (y : FVec F S100000x128 .f32) (γ β : FVec F S128 .f32) : FVec F S100000x128 .f32 :=
  relu
    (addf
      (mulf
        (mulf (centred y)
          (broadcastInDim S100000x128 ![0, 1] bcast_S100000x1_S100000x128_0_1
            (Host.rsqrt (addf (variance y) (broadcastInDim S100000x1 ![] bcast_S_S100000x1 (constant S_ .f32 0x3727C5AC#32))))))
        (broadcastInDim S100000x128 ![0, 1] bcast_S1x128_S100000x128_0_1 (broadcastInDim S1x128 ![1] bcast_S128_S1x128_1 γ)))
      (broadcastInDim S100000x128 ![0, 1] bcast_S1x128_S100000x128_0_1 (broadcastInDim S1x128 ![1] bcast_S128_S1x128_1 β)))

/-- The whole reference. -/
def result (x : FVec F S100000x128 .f32) (ei : IVec S2x600000 32) (ea : FVec F S600000x6 .f32) (We : FVec F S6x128 .f32) (be : FVec F S128 .f32) (eps : FVec F S_ .f32)
    (W₁ : FVec F S128x128 .f32) (b₁ : FVec F S128 .f32) (W₂ : FVec F S128x128 .f32) (b₂ γ β : FVec F S128 .f32) : FVec F S100000x128 .f32 :=
  out (hidden (scale eps) x (agg x ei ea We be) W₁ b₁ W₂ b₂) γ β

/-! ## The fold at the result buffer -/

set_option maxHeartbeats 4000000 in
set_option maxRecDepth 16384 in
/-- The operations' fold at the result buffer is the composition of the stages. -/
theorem result_eq (V : Valuation τ sig (Elt F)) :
    after ops V (main_v51 : DevRef τ sig)
      = result (V (main_arg0 : DevRef τ sig)) (V (main_arg1 : DevRef τ sig)) (V (main_arg2 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig))
          (V (main_arg10 : DevRef τ sig)) (V (main_arg11 : DevRef τ sig)) (V (main_arg12 : DevRef τ sig)) := by
  after_results_simp
  rfl

end Cert.ReferenceIdeal.RefTerm

end
-- ==== Proof.RefPost.lean ====
/-
  The reference's run, stated at the launch memory: the result buffer ends at the composed stages of the argument
  arrays, and no operation writes an argument array, so each ends as launched.
-/
import proofs.«126570_j74113955660246_2_alg».proof.Proof.RefTerm

noncomputable section

namespace Cert.ReferenceIdeal.RefPost

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- A reference that no operation of the line writes keeps its contents: each operation's one written buffer is another
    reference, decided. -/
macro "kept_by_writes" : tactic => `(tactic| (
  refine after_of_forall_not_mem _ _ (List.forall_iff_forall_mem.mp ?_)
  simp only [ops, List.Forall, nullary_writes, unary_writes, binary_writes, ternary_writes, reshape_writes, Finset.mem_singleton]
  repeat' apply And.intro
  all_goals exact devRef_ne_of_ne (by decide)))

theorem kept0 (V : Valuation τ sig (Elt F)) : after ops V (main_arg0 : DevRef τ sig) = V (main_arg0 : DevRef τ sig) := by kept_by_writes
theorem kept1 (V : Valuation τ sig (Elt F)) : after ops V (main_arg1 : DevRef τ sig) = V (main_arg1 : DevRef τ sig) := by kept_by_writes
theorem kept2 (V : Valuation τ sig (Elt F)) : after ops V (main_arg2 : DevRef τ sig) = V (main_arg2 : DevRef τ sig) := by kept_by_writes
theorem kept3 (V : Valuation τ sig (Elt F)) : after ops V (main_arg3 : DevRef τ sig) = V (main_arg3 : DevRef τ sig) := by kept_by_writes
theorem kept4 (V : Valuation τ sig (Elt F)) : after ops V (main_arg4 : DevRef τ sig) = V (main_arg4 : DevRef τ sig) := by kept_by_writes
theorem kept5 (V : Valuation τ sig (Elt F)) : after ops V (main_arg5 : DevRef τ sig) = V (main_arg5 : DevRef τ sig) := by kept_by_writes
theorem kept6 (V : Valuation τ sig (Elt F)) : after ops V (main_arg6 : DevRef τ sig) = V (main_arg6 : DevRef τ sig) := by kept_by_writes
theorem kept7 (V : Valuation τ sig (Elt F)) : after ops V (main_arg7 : DevRef τ sig) = V (main_arg7 : DevRef τ sig) := by kept_by_writes
theorem kept8 (V : Valuation τ sig (Elt F)) : after ops V (main_arg8 : DevRef τ sig) = V (main_arg8 : DevRef τ sig) := by kept_by_writes
theorem kept9 (V : Valuation τ sig (Elt F)) : after ops V (main_arg9 : DevRef τ sig) = V (main_arg9 : DevRef τ sig) := by kept_by_writes
theorem kept10 (V : Valuation τ sig (Elt F)) : after ops V (main_arg10 : DevRef τ sig) = V (main_arg10 : DevRef τ sig) := by kept_by_writes
theorem kept11 (V : Valuation τ sig (Elt F)) : after ops V (main_arg11 : DevRef τ sig) = V (main_arg11 : DevRef τ sig) := by kept_by_writes
theorem kept12 (V : Valuation τ sig (Elt F)) : after ops V (main_arg12 : DevRef τ sig) = V (main_arg12 : DevRef τ sig) := by kept_by_writes

/-- Every weakly fair execution of the reference terminates with the result at the composed stages of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = RefTerm.result (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v51).trans (RefTerm.result_eq _),
      (h c main_arg0).trans (kept0 _),
      (h c main_arg1).trans (kept1 _),
      (h c main_arg2).trans (kept2 _),
      (h c main_arg3).trans (kept3 _),
      (h c main_arg4).trans (kept4 _),
      (h c main_arg5).trans (kept5 _),
      (h c main_arg6).trans (kept6 _),
      (h c main_arg7).trans (kept7 _),
      (h c main_arg8).trans (kept8 _),
      (h c main_arg9).trans (kept9 _),
      (h c main_arg10).trans (kept10 _),
      (h c main_arg11).trans (kept11 _),
      (h c main_arg12).trans (kept12 _)⟩)
    (run_all m ρ)

end Cert.ReferenceIdeal.RefPost

end
-- ==== Proof.RefRead.lean ====
/-
  The reference's stages read at one entry, on the extended reals.

  Every stage of the reference either acts entry by entry, or along one row: the matrix products contract a row with a
  column of the weights, the sums run along a row, and the broadcasts copy a row vector to every row, a column to every
  lane, or a scalar everywhere.  So entry `(r, c)` of the result is the node-row function of row `r` of the features and
  row `r` of the aggregate.  The variance's divisor is `128 − 0` with the `0` an integer zero converted, its guard
  `128 − 0 > 0` holds, and the selection takes the quotient.
-/
import proofs.«126570_j74113955660246_2_alg».proof.Proof.RefTerm
import proofs.«126570_j74113955660246_2_alg».proof.Proof.NodeRow
import proofs.«126570_j74113955660246_2_alg».proof.Proof.LibPlainDot
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefTerm Idealize.ShloMosaic Idealize.ShloMosaic.ValueIdx

/-! ## The broadcasts at an entry -/

/-- A length-128 vector laid along every row reads, at `(r, k)`, its entry `k`. -/
theorem rowVec_apply (b : FVec Ideal S128 .f32) (r : Fin 100000) (k : Fin 128) :
    broadcastInDim S100000x128 ![0, 1] bcast_S1x128_S100000x128_0_1 (broadcastInDim S1x128 ![1] bcast_S128_S1x128_1 b) (ix2 r k) = b (ix1 k) := by
  rw [broadcastInDim_oneRow_apply]
  refine broadcastInDim_apply ![1] bcast_S128_S1x128_1 b (ix2 (0 : Fin 1) k) (ix1 k) fun a => ?_
  match a with
  | ⟨0, _⟩ => rfl

/-- A column laid along every lane reads, at `(r, c)`, its row `r`. -/
theorem colVec_apply (v : FVec Ideal S100000x1 .f32) (r : Fin 100000) (c : Fin 128) :
    broadcastInDim S100000x128 ![0, 1] bcast_S100000x1_S100000x128_0_1 v (ix2 r c) = v (ix2 r (0 : Fin 1)) := by
  refine broadcastInDim_apply ![0, 1] bcast_S100000x1_S100000x128_0_1 v (ix2 r c) (ix2 r (0 : Fin 1)) fun a => ?_
  match a with
  | ⟨0, _⟩ => rfl
  | ⟨1, _⟩ => rfl

/-- A length-100000 vector as a column reads, at `(r, u)`, its entry `r`. -/
theorem asCol_apply (w : FVec Ideal S100000 .f32) (r : Fin 100000) (u : Fin 1) :
    broadcastInDim S100000x1 ![0] bcast_S100000_S100000x1_0 w (ix2 r u) = w (ix1 r) := by
  refine broadcastInDim_apply ![0] bcast_S100000_S100000x1_0 w (ix2 r u) (ix1 r) fun a => ?_
  match a with
  | ⟨0, _⟩ => rfl

/-! ## The stages at an entry -/

theorem pre_apply (s : FVec Ideal S_ .f32) (x a : FVec Ideal S100000x128 .f32) (r : Fin 100000) (j : Fin 128) :
    pre s x a (ix2 r j) = s ix0 * x (ix2 r j) + a (ix2 r j) := by
  unfold pre
  show broadcastInDim S100000x128 ![] bcast_S_S100000x128 s (ix2 r j) * x (ix2 r j) + a (ix2 r j) = _
  rw [broadcastInDim_scalar_apply]

theorem layer_apply (h : FVec Ideal S100000x128 .f32) (W : FVec Ideal S128x128 .f32) (b : FVec Ideal S128 .f32) (r : Fin 100000) (k : Fin 128) :
    layer h W b (ix2 r k) = (∑ j : Fin 128, h (ix2 r j) * W (ix2 j k)) + b (ix1 k) := by
  unfold layer
  show Host.dotGeneral dot_S100000x128_S128x128_S100000x128_1_0_0_1_n_n none h W (ix2 r k)
      + broadcastInDim S100000x128 ![0, 1] bcast_S1x128_S100000x128_0_1 (broadcastInDim S1x128 ![1] bcast_S128_S1x128_1 b) (ix2 r k) = _
  rw [rowVec_apply,
    PlainDot.dotGeneral_apply dot_S100000x128_S128x128_S100000x128_1_0_0_1_n_n none rfl rfl (fun _ _ => rfl) (fun _ _ => rfl) (fun _ _ => rfl) (fun _ _ => rfl)]

theorem relu_apply (v : FVec Ideal S100000x128 .f32) (r : Fin 100000) (c : Fin 128) :
    relu v (ix2 r c) = max (v (ix2 r c)) 0 := by
  unfold relu
  show max (v (ix2 r c)) (broadcastInDim S100000x128 ![] bcast_S_S100000x128 (constant (F := Ideal) S_ .f32 0x00000000#32) (ix2 r c)) = _
  rw [broadcastInDim_scalar_apply, constant_apply, Ideal.ofBits_zero_f32]

theorem hidden_apply (s : FVec Ideal S_ .f32) (x a : FVec Ideal S100000x128 .f32) (W₁ : FVec Ideal S128x128 .f32) (b₁ : FVec Ideal S128 .f32)
    (W₂ : FVec Ideal S128x128 .f32) (b₂ : FVec Ideal S128 .f32) (r : Fin 100000) (c : Fin 128) :
    RefTerm.hidden s x a W₁ b₁ W₂ b₂ (ix2 r c)
      = NodeRow.mlp (fun _ => s ix0) (fun j => x (ix2 r j)) (fun j => a (ix2 r j)) (fun j k => W₁ (ix2 j k))
          (fun k => b₁ (ix1 k)) (fun k c => W₂ (ix2 k c)) (fun c => b₂ (ix1 c)) c := by
  unfold RefTerm.hidden NodeRow.mlp
  rw [layer_apply]
  refine congrArg (· + b₂ (ix1 c)) (Finset.sum_congr rfl fun k _ => congrArg (· * W₂ (ix2 k c)) ?_)
  rw [relu_apply, layer_apply]
  refine congrArg (fun z => max (z + b₁ (ix1 k)) 0) (Finset.sum_congr rfl fun j _ => congrArg (· * W₁ (ix2 j k)) ?_)
  exact pre_apply s x a r j

theorem colMean_apply (v : FVec Ideal S100000x128 .f32) (den : FVec Ideal S_ .f32) (r : Fin 100000) (u : Fin 1) :
    colMean v den (ix2 r u) = NodeRow.mean (den ix0) (fun j => v (ix2 r j)) := by
  unfold colMean NodeRow.mean
  rw [hostDivf_apply, broadcastInDim_scalar_apply, asCol_apply, hostReduceAdd_apply,
    Ideal.hostReduceAdd_single reducesTo_S100000x128_S100000_d1 (by decide), constant_apply, Ideal.ofBits_zero_f32, zero_add]
  refine congrArg (fun z => Ideal.div z (den ix0)) (Finset.sum_congr rfl fun k _ => congrArg v (funext fun ax => Fin.ext ?_))
  match ax with
  | ⟨0, _⟩ => rfl
  | ⟨1, _⟩ => rfl

theorem centred_apply (y : FVec Ideal S100000x128 .f32) (r : Fin 100000) (c : Fin 128) :
    centred y (ix2 r c) = NodeRow.centred (Ideal.ofBits .f32 0x43000000#32) (fun j => y (ix2 r j)) c := by
  unfold centred NodeRow.centred
  show y (ix2 r c) - broadcastInDim S100000x128 ![0, 1] bcast_S100000x1_S100000x128_0_1 (colMean y (constant (F := Ideal) S_ .f32 0x43000000#32)) (ix2 r c) = _
  rw [colVec_apply, colMean_apply, constant_apply]

/-- The variance's divisor is `128 − 0`. -/
theorem varDen_apply : varDen (F := Ideal) ix0 = Ideal.ofBits .f32 0x43000000#32 - 0 := by
  unfold varDen
  show Ideal.ofBits .f32 0x43000000#32 - (Scalar.sitofp .f32 (0#32 : BitVec 32) : Ideal .f32) = _
  rw [sitofp_zero]

theorem variance_apply (y : FVec Ideal S100000x128 .f32) (r : Fin 100000) (u : Fin 1) :
    variance y (ix2 r u) = NodeRow.variance (Ideal.ofBits .f32 0x43000000#32) (fun j => y (ix2 r j)) := by
  unfold variance NodeRow.variance
  rw [select_apply, broadcastInDim_scalar_apply, cmpf_apply, constant_apply, colMean_apply]
  show Scalar.select (Ideal.cmp .ogt (varDen (F := Ideal) ix0) (Ideal.ofBits .f32 0x00000000#32)) _ _ = _
  rw [varDen_apply, NodeRow.guard, sub_zero]
  show NodeRow.mean _ _ = _
  refine congrArg (NodeRow.mean _) (funext fun j => ?_)
  show centred y (ix2 r j) * centred y (ix2 r j) = _
  rw [centred_apply]

theorem out_apply (y : FVec Ideal S100000x128 .f32) (γ β : FVec Ideal S128 .f32) (r : Fin 100000) (c : Fin 128) :
    out y γ β (ix2 r c)
      = NodeRow.norm (Ideal.ofBits .f32 0x43000000#32) (Ideal.ofBits .f32 0x3727C5AC#32) (fun j => y (ix2 r j))
          (fun c => γ (ix1 c)) (fun c => β (ix1 c)) c := by
  unfold out NodeRow.norm
  rw [relu_apply]
  show max (centred y (ix2 r c)
        * broadcastInDim S100000x128 ![0, 1] bcast_S100000x1_S100000x128_0_1
            (Host.rsqrt (addf (variance y) (broadcastInDim S100000x1 ![] bcast_S_S100000x1 (constant (F := Ideal) S_ .f32 0x3727C5AC#32)))) (ix2 r c)
        * broadcastInDim S100000x128 ![0, 1] bcast_S1x128_S100000x128_0_1 (broadcastInDim S1x128 ![1] bcast_S128_S1x128_1 γ) (ix2 r c)
        + broadcastInDim S100000x128 ![0, 1] bcast_S1x128_S100000x128_0_1 (broadcastInDim S1x128 ![1] bcast_S128_S1x128_1 β) (ix2 r c)) 0 = _
  rw [rowVec_apply, rowVec_apply, colVec_apply, centred_apply]
  show max (_ * Ideal.rsqrt (variance y (ix2 r (0 : Fin 1))
        + broadcastInDim S100000x1 ![] bcast_S_S100000x1 (constant (F := Ideal) S_ .f32 0x3727C5AC#32) (ix2 r (0 : Fin 1))) * _ + _) 0 = _
  rw [variance_apply, broadcastInDim_scalar_apply, constant_apply]

/-- The whole reference is the layer function of the features and the aggregate. -/
theorem result_eq_layerOut (x : FVec Ideal S100000x128 .f32) (ei : IVec S2x600000 32) (ea : FVec Ideal S600000x6 .f32) (We : FVec Ideal S6x128 .f32)
    (be : FVec Ideal S128 .f32) (eps : FVec Ideal S_ .f32) (W₁ : FVec Ideal S128x128 .f32) (b₁ : FVec Ideal S128 .f32)
    (W₂ : FVec Ideal S128x128 .f32) (b₂ γ β : FVec Ideal S128 .f32) :
    result x ei ea We be eps W₁ b₁ W₂ b₂ γ β
      = NodeRow.layerOut x (agg x ei ea We be) (Ideal.ofBits .f32 0x3F800000#32 + eps ix0) W₁ b₁ W₂ b₂ γ β := by
  funext i
  obtain ⟨r, c, rfl⟩ : ∃ (r : Fin 100000) (c : Fin 128), i = ix2 r c := ⟨i 0, i 1, eq_ix2 i⟩
  unfold result
  rw [out_apply, NodeRow.layerOut_ix2]
  refine congrArg (fun f => NodeRow.norm _ _ f _ _ c) (funext fun j => ?_)
  exact hidden_apply (scale eps) x (agg x ei ea We be) W₁ b₁ W₂ b₂ r j

end Cert.ReferenceIdeal.RefRead

end
-- ==== Proof.lean ====
/-
  The layer is computed node by node.

  Both programs first aggregate the edge messages into the nodes with the same host operations.  The kernel then walks
  the nodes in 20 blocks of 5000 rows; the reference works on all 100000 rows at once.  On the extended reals each
  result entry is the same function of one node's feature row, its aggregate row and the shared parameters
  (`NodeRow.mlp` then `NodeRow.norm`): the kernel's matrix unit into a zero accumulator and the host's product are the
  same sum over the contracted axis, the lane sum and the host's sum from zero are the same row sum, both divide by
  the word of `128.0`, the reference's variance divisor `128 − 0` is that word's value and its guard holds, and both
  inverse roots are the ideal one.  No law beyond these identifications is used, so the finiteness of the inputs is
  never opened.  The idealization rewrote nothing, so the preservation conjunct is trivial, and the three frames are the
  generated frame runs (the reference's being its run with the result dropped).
-/
import proofs.«126570_j74113955660246_2_alg».proof.Defs
import proofs.«126570_j74113955660246_2_alg».proof.Proof.Gen.Kernel
import proofs.«126570_j74113955660246_2_alg».proof.Proof.Gen.Kernel.Skeleton
import proofs.«126570_j74113955660246_2_alg».proof.Proof.Gen.Kernel.Launch
import proofs.«126570_j74113955660246_2_alg».proof.Proof.Gen.Kernel.Points
import proofs.«126570_j74113955660246_2_alg».proof.Proof.Gen.Kernel.Frame
import proofs.«126570_j74113955660246_2_alg».proof.Proof.Gen.KernelIdeal
import proofs.«126570_j74113955660246_2_alg».proof.Proof.Gen.KernelIdeal.Skeleton
import proofs.«126570_j74113955660246_2_alg».proof.Proof.Gen.KernelIdeal.Launch
import proofs.«126570_j74113955660246_2_alg».proof.Proof.Gen.KernelIdeal.Points
import proofs.«126570_j74113955660246_2_alg».proof.Proof.Gen.KernelIdeal.Frame
import proofs.«126570_j74113955660246_2_alg».proof.Proof.Gen.KernelIdeal.Value
import proofs.«126570_j74113955660246_2_alg».proof.Proof.Gen.ReferenceIdeal
import proofs.«126570_j74113955660246_2_alg».proof.Proof.Gen.Pre_finite_inputs
import proofs.«126570_j74113955660246_2_alg».proof.Proof.KernelArr
import proofs.«126570_j74113955660246_2_alg».proof.Proof.RefPost
import proofs.«126570_j74113955660246_2_alg».proof.Proof.RefRead
import Idealize.ShloMosaic.Adequacy
import Idealize.ShloMosaic.Init

noncomputable section

namespace Cert.Proof

open Idealize.ShloMosaic Idealize.ShloMosaic.TcCoe Idealize.SL.Sem

/-- The two programs' aggregates are one term: the same host operations over the same dimension records. -/
theorem agg_eq {F : FTy → Type} [FloatOps F] (x : FVec F Cert.KernelIdeal.S100000x128 .f32) (ei : IVec Cert.KernelIdeal.S2x600000 32)
    (ea : FVec F Cert.KernelIdeal.S600000x6 .f32) (We : FVec F Cert.KernelIdeal.S6x128 .f32) (be : FVec F Cert.KernelIdeal.S128 .f32) :
    Cert.ReferenceIdeal.RefTerm.agg x ei ea We be = Cert.KernelIdeal.HostPre.agg x ei ea We be := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefPost.run (F := Ideal) m ρ)

/-- From memories that agree on the arguments both programs end with the result array at the layer function of the
    kernel's launch arguments. -/
theorem algebraic : Cert.algebraic_KernelIdeal_ReferenceIdeal := by
  intro m ρ m' ρ' _ hagree
  refine ⟨fun c => Cert.KernelIdeal.Arr.target m c, ?_, ?_⟩
  · exact (θ_run Cert.KernelIdeal.defs _ _).mono
      (fun _ h c => ⟨(h c).1.trans (Cert.KernelIdeal.Arr.final m c), (h c).2⟩) (Cert.KernelIdeal.Value.run_blocks m ρ)
  · refine (θ_run Cert.ReferenceIdeal.defs _ _).mono (fun _ h c => ⟨(h c).1.trans ?_, (h c).2⟩)
      (Cert.ReferenceIdeal.RefPost.run (F := Ideal) m' ρ')
    obtain ⟨e0, e1, e2, -, e4, e5, e6, e7, e8, e9, e10, e11, e12⟩ := hagree c
    rw [e0, e1, e2, e4, e5, e6, e7, e8, e9, e10, e11, e12, Cert.ReferenceIdeal.RefRead.result_eq_layerOut, agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
